-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S2048x4096 : Shape := ⟨2, ![2048, 4096]⟩
abbrev S1024x4096 : Shape := ⟨2, ![1024, 4096]⟩
abbrev S1024 : Shape := ⟨1, ![1024]⟩
abbrev S_ : Shape := ⟨0, ![]⟩

class Facts : Prop where
  bcast_S_S2097152 : S_.BroadcastsInDim S2097152 (![] : Fin 0 → Fin S2097152.rank)
  reducesTo_S2097152_S_d0 : S2097152.ReducesTo [0] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2097152 .f32) (main_arg1 : FVec F S2048x4096 .f32) (main_arg2 : FVec F S1024x4096 .f32) (main_arg3 : FVec F S1024 .f32) (main_arg4 : FVec F S1024 .f32) : IVec S_ 1 :=
  let main_v0 : FVec F S2097152 .f32 := Host.absf main_arg0
  let main_cst : FVec F S_ .f32 := constant S_ .f32 0x7F800000#32
  let main_v1 : FVec F S2097152 .f32 := broadcastInDim S2097152 ![] bcast_S_S2097152 main_cst
  let main_v2 : IVec S2097152 1 := cmpf .olt main_v0 main_v1
  let main_c : IVec S_ 1 := constantI S_ 1 1#1
  let main_v3 : IVec S_ 1 := (fun x v => Host.reduce IntOp.andi x v reducesTo_S2097152_S_d0 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S2097152 : Shape := ⟨1, ![2097152]⟩
abbrev S2048x4096 : Shape := ⟨2, ![2048, 4096]⟩
abbrev S1024x4096 : Shape := ⟨2, ![1024, 4096]⟩
abbrev S1024 : Shape := ⟨1, ![1024]⟩
abbrev S2048x1024 : Shape := ⟨2, ![2048, 1024]⟩
abbrev S1x1024 : Shape := ⟨2, ![1, 1024]⟩
abbrev S128x1024 : Shape := ⟨2, ![128, 1024]⟩
abbrev S128x4096 : Shape := ⟨2, ![128, 4096]⟩
abbrev S1x8388608 : Shape := ⟨2, ![1, 8388608]⟩

abbrev nBuf : Space → Nat
  | .hbm => 10
  | .vmem => 9
  | .smem => 0
  | _ => 0

abbrev bufTy : (tb : Table) → Fin (tcTables nBuf tb) → BufTy
  | .hbm, ⟨0, _⟩ => ⟨S2097152, .f32⟩
  | .hbm, ⟨1, _⟩ => ⟨S2048x4096, .f32⟩
  | .hbm, ⟨2, _⟩ => ⟨S1024x4096, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S2048x4096, .f32⟩
  | .hbm, ⟨9, _⟩ => ⟨S1x8388608, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | _, _ => ⟨S2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2097152_S2048x1024 : S2097152.ShapeCasts S2048x1024
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S128x4096_S128x4096_0_0 : ∀ a, (![0, 0] : Fin 2 → Nat) a + S128x4096.size a ≤ S128x4096.size a
  h_S128x4096 : 0 < S128x4096.numel
  shapeCasts_S2048x4096_S1x8388608 : S2048x4096.ShapeCasts S1x8388608
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S2048x1024.size a
  hwx0_0 : ∀ i : grid0.Coords, EltTy.bits .f32 = 32 ∨ (Rect.block (s := S2048x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .f32 = 32 ∨ (Rect.block (s := S1024x4096) S1024x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S2048x4096.size a
  hwx0_4 : ∀ i : grid0.Coords, EltTy.bits .f32 = 32 ∨ (Rect.block (s := S2048x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S2048x4096.size a
  hwx0_5 : ∀ i : grid0.Coords, EltTy.bits .f32 = 32 ∨ (Rect.block (s := S2048x4096) S128x4096.size (cc0_transform_5 i) (hinb0_5 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152 : Shape := ⟨1, ![2097152]⟩
abbrev S2048x4096 : Shape := ⟨2, ![2048, 4096]⟩
abbrev S1024x4096 : Shape := ⟨2, ![1024, 4096]⟩
abbrev S1024 : Shape := ⟨1, ![1024]⟩
abbrev S2048x1024 : Shape := ⟨2, ![2048, 1024]⟩
abbrev S1x1024 : Shape := ⟨2, ![1, 1024]⟩
abbrev S_ : Shape := ⟨0, ![]⟩
abbrev S1x8388608 : Shape := ⟨2, ![1, 8388608]⟩

abbrev nBuf : Space → Nat
  | .hbm => 36
  | .vmem => 0
  | .smem => 0
  | _ => 0

abbrev bufTy : (tb : Table) → Fin (tcTables nBuf tb) → BufTy
  | .hbm, ⟨0, _⟩ => ⟨S2097152, .f32⟩
  | .hbm, ⟨1, _⟩ => ⟨S2048x4096, .f32⟩
  | .hbm, ⟨2, _⟩ => ⟨S1024x4096, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .i1⟩
  | .hbm, ⟨12, _⟩ => ⟨S_, .f32⟩
  | .hbm, ⟨13, _⟩ => ⟨S2048x1024, .f32⟩
  | .hbm, ⟨14, _⟩ => ⟨S2048x1024, .i1⟩
  | .hbm, ⟨15, _⟩ => ⟨S2048x1024, .i1⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .i1⟩
  | .hbm, ⟨22, _⟩ => ⟨S_, .f32⟩
  | .hbm, ⟨23, _⟩ => ⟨S2048x1024, .f32⟩
  | .hbm, ⟨24, _⟩ => ⟨S2048x1024, .i1⟩
  | .hbm, ⟨25, _⟩ => ⟨S2048x1024, .i1⟩
  | .hbm, ⟨26, _⟩ => ⟨S2048x1024, .i1⟩
  | .hbm, ⟨27, _⟩ => ⟨S_, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x4096, .f32⟩
  | .hbm, ⟨34, _⟩ => ⟨S2048x4096, .f32⟩
  | .hbm, ⟨35, _⟩ => ⟨S1x8388608, .f32⟩
  | _, _ => ⟨S2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  shapeCasts_S2097152_S2048x1024 : S2097152.ShapeCasts S2048x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  shapeCasts_S2048x4096_S1x8388608 : S2048x4096.ShapeCasts S1x8388608
  dot_S2048x1024_S1024x4096_S2048x4096_1_0_0_1_n_n_wf : DotDims.WF S2048x1024 S1024x4096 S2048x4096 [1] [0] [0] [1] [] []

variable [Facts₀]

def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf

class Facts : Prop extends Facts₀ where

variable [Facts]
-- ==== Proof.Spec.lean ====
/-
  The function both programs compute, stated once over the extended reals.

  There are S = 2048 shops, B = 1024 bundles and C = 4096 style-colour cells. The flat probability vector holds
  shop `s`'s probability for bundle `b` at position `s * 1024 + b`. One entry `p` is DAMPED by the factor 0.01
  (the f32 literal, the same word in both programs) when it over-draws the bundle's availability
  (`avail - p < 0` and `p > 0`) or its negative allocation (`alloc + p < 0` and `p < 0`), and kept (factor 1)
  otherwise. The next inventory of shop `s` in cell `c` is the current one plus the sum over the bundles of the
  damped probability times the bundle's content of that cell:

      next[s, c] = cur[s, c] + Σ_b damped(avail[b], alloc[b], p[s, b]) · bun[b, c].

  The two programs apply the same scalar operations in the same order, and differ only in how the rows are cut into
  blocks and in how the sum over the bundles is indexed. Of the extended reals this certificate uses only that
  `0 + x = x` and that a finite sum may be re-indexed along a bijection (addition there is commutative and
  associative, at the infinities too): no distributivity, no cancellation.
-/
import Idealize.ShloMosaic.PureOps.Ideal
import Idealize.ShloMosaic.PureOps.Ideal.Laws
import Idealize.ShloMosaic.Lib.ValueIdx

noncomputable section

namespace Cert.Inventory

open Idealize.ShloMosaic Idealize.ShloMosaic.ValueIdx

/-- The three float literals, as the extended reals their words denote (never evaluated: both programs carry the
    same words). -/
abbrev litZero : Ideal .f32 := Ideal.ofBits .f32 0x00000000#32
abbrev litDamp : Ideal .f32 := Ideal.ofBits .f32 0x3C23D70A#32
abbrev litOne : Ideal .f32 := Ideal.ofBits .f32 0x3F800000#32

/-- The bit that says an entry `p` over-draws: `(avail - p < 0 ∧ p > 0) ∨ (alloc + p < 0 ∧ p < 0)`. -/
def overdrawn (avail alloc p : Ideal .f32) : BitVec 1 :=
  IntOp.ori
    (IntOp.andi (FloatOps.cmpf .olt (FloatOps.subf avail p) litZero) (FloatOps.cmpf .ogt p litZero))
    (IntOp.andi (FloatOps.cmpf .olt (FloatOps.addf alloc p) litZero) (FloatOps.cmpf .olt p litZero))

/-- One damped probability: `p` times 0.01 where it over-draws, `p` times 1 elsewhere. -/
def damped (avail alloc p : Ideal .f32) : Ideal .f32 :=
  FloatOps.mulf p (Scalar.select (overdrawn avail alloc p) litDamp litOne)

/-- Position `s * 1024 + b` of the flat probability vector. -/
abbrev flat (s : Fin 2048) (b : Fin 1024) : (⟨1, ![2097152]⟩ : Shape).Idx :=
  ix1 ⟨s.val * 1024 + b.val, by have := s.isLt; have := b.isLt; omega⟩

/-- The next inventory, index by index, as one function of the five argument arrays. -/
def nextInven (proba : (⟨1, ![2097152]⟩ : Shape).Idx → EReal) (cur : (⟨2, ![2048, 4096]⟩ : Shape).Idx → EReal)
    (bun : (⟨2, ![1024, 4096]⟩ : Shape).Idx → EReal) (avail alloc : (⟨1, ![1024]⟩ : Shape).Idx → EReal) :
    (⟨2, ![2048, 4096]⟩ : Shape).Idx → EReal :=
  fun i => cur i + ∑ b : Fin 1024, damped (avail (ix1 b)) (alloc (ix1 b)) (proba (flat (i 0) b)) * bun (ix2 b (i 1))

end Cert.Inventory

end
-- ==== Proof.RefSide.lean ====
/-
  The reference computes `nextInven`.

  Its program is a straight line of whole-array operations over [2048, 1024] (the probabilities reshaped, the two
  bundle vectors broadcast along the shops, the comparisons, the selection, the product), one contraction with the
  [1024, 4096] bundle contents, and the sum with the current inventory. Read at an index (s, c) each stage is the
  scalar operation of its operands at that index, the contraction is the sum over the 1024 bundles, the reshape of
  the flat probabilities reads position `s * 1024 + b`, and a bundle vector broadcast along the shops reads entry
  `b`: this is `nextInven` term for term.
-/
import proofs.«137715_j45466523795646_2_alg».proof.Proof.Gen.ReferenceIdeal.Read
import proofs.«137715_j45466523795646_2_alg».proof.Proof.Spec

noncomputable section

namespace Cert.Inventory.Ref

open Idealize.ShloMosaic Idealize.ShloMosaic.ValueIdx
open Cert.ReferenceIdeal Cert.ReferenceIdeal.Read

/-- The left operand of the contraction at (shop of `i`, bundle `b`) is read from the flat vector at `s * 1024 + b`. -/
theorem flat_of_lidx (i : S2048x4096.Idx) (b : Fin 1024) : idx_main_v0 (lidx_main_v20 i b) = flat (i 0) b :=
  funext fun a => by match a with | ⟨0, _⟩ => rfl

/-- A bundle vector broadcast along the shops, at (shop, bundle `b`), is its entry `b`. -/
theorem avail_of_lidx (i : S2048x4096.Idx) (b : Fin 1024) : idx_main_v1 (idx_main_v2 (lidx_main_v20 i b)) = ix1 b :=
  funext fun a => by match a with | ⟨0, _⟩ => rfl
theorem alloc_of_lidx (i : S2048x4096.Idx) (b : Fin 1024) : idx_main_v9 (idx_main_v10 (lidx_main_v20 i b)) = ix1 b :=
  funext fun a => by match a with | ⟨0, _⟩ => rfl

/-- The right operand at (bundle `b`, cell of `i`). -/
theorem cell_of_ridx (i : S2048x4096.Idx) (b : Fin 1024) : ridx_main_v20 i b = ix2 b (i 1) :=
  funext fun a => by match a with | ⟨0, _⟩ => rfl | ⟨1, _⟩ => rfl

/-- The reference's damped probability at (shop of `i`, bundle `b`). -/
theorem damped_stage (x0 : (⟨S2097152, .f32⟩ : BufTy).Contents (Elt Ideal)) (x3 x4 : (⟨S1024, .f32⟩ : BufTy).Contents (Elt Ideal))
    (i : S2048x4096.Idx) (b : Fin 1024) :
    val_main_v19 (F := Ideal) x0 x3 x4 (lidx_main_v20 i b) = damped (x3 (ix1 b)) (x4 (ix1 b)) (x0 (flat (i 0) b)) := by
  simp only [val_main_v19_apply, val_main_v18_apply, val_main_v17_apply, val_main_v8_apply, val_main_v16_apply,
    val_main_v5_apply, val_main_v7_apply, val_main_v13_apply, val_main_v15_apply, val_main_v3_apply, val_main_v11_apply,
    val_main_v2_apply, val_main_v10_apply, val_main_v1_apply, val_main_v9_apply, val_main_v0_apply,
    val_main_v4_apply, val_main_v6_apply, val_main_v12_apply, val_main_v14_apply, val_main_call0_v0_apply, val_main_call0_v1_apply,
    val_main_cst_apply, val_main_cst_0_apply, val_main_cst_1_apply, val_main_cst_2_apply, val_main_cst_3_apply, val_main_cst_4_apply,
    flat_of_lidx, avail_of_lidx, alloc_of_lidx]
  rfl

/-- The reference's inventory stage (before its final reshape) is `nextInven` of the arguments. -/
theorem stage_eq (x0 : (⟨S2097152, .f32⟩ : BufTy).Contents (Elt Ideal)) (x1 : (⟨S2048x4096, .f32⟩ : BufTy).Contents (Elt Ideal))
    (x2 : (⟨S1024x4096, .f32⟩ : BufTy).Contents (Elt Ideal)) (x3 x4 : (⟨S1024, .f32⟩ : BufTy).Contents (Elt Ideal)) :
    val_main_v21 (F := Ideal) x0 x1 x2 x3 x4 = nextInven x0 x1 x2 x3 x4 := by
  funext i
  rw [val_main_v21_apply, val_main_v20_apply]
  unfold nextInven
  refine congrArg (x1 i + ·) (Finset.sum_congr rfl fun b _ => ?_)
  rw [damped_stage, cell_of_ridx]
  rfl

end Cert.Inventory.Ref

end
-- ==== Proof.Payload.lean ====
/-
  What the kernel body stores, read at an index.

  At a grid point the body holds a [128, 1024] block of probabilities (128 shops), the two [1, 1024] bundle vectors,
  the whole [1024, 4096] bundle contents and a [128, 4096] block of the current inventory. It damps the block entry
  by entry (each bundle vector broadcast down the 128 rows), multiplies the damped block into the bundle contents
  from a zero accumulator, and adds the inventory block. At row `r` and cell `c` of the block the stored value is
  therefore the inventory there plus the sum over the 1024 bundles of the damped entry (r, b) times the contents
  (b, c). The changes of float format on the way into the product are the identity on the extended reals, and a
  product into a zero accumulator is the bare sum.
-/
import proofs.«137715_j45466523795646_2_alg».proof.Proof.Gen.KernelIdeal.Skeleton
import proofs.«137715_j45466523795646_2_alg».proof.Proof.Spec
import Idealize.ShloMosaic.Lib.Pipeline.Value
import Idealize.ShloMosaic.Lib.ValueIdx
import Idealize.ShloMosaic.PureOps.Ideal.Laws

noncomputable section

namespace Cert.Inventory.Body

open Idealize.ShloMosaic Idealize.ShloMosaic.ValueIdx
open Cert.KernelIdeal Cert.KernelIdeal.Gen

/-- A [1, 1024] vector broadcast down 128 rows, at (r, b), is its entry (0, b). -/
theorem row_broadcast (x : FVec Ideal S1x1024 .f32) (r : Fin 128) (b : Fin 1024) :
    broadcastTo S128x1024 x broadcasts_S1x1024_S128x1024 (ix2 r b) = x (ix2 0 b) :=
  broadcastTo_apply x broadcasts_S1x1024_S128x1024 (ix2 r b) (ix2 0 b) (fun a => match a with
    | ⟨0, _⟩ => by show (0 : Nat) = if (1 : Nat) = 1 then 0 else _; rw [if_pos rfl]
    | ⟨1, _⟩ => by show b.val = if (1024 : Nat) = 1 then 0 else _; rw [if_neg (by decide)]; rfl)

/-- The bitwise operations on vectors of words, at an index. -/
theorem andi_at {s : Shape} {w : Nat} (x y : IVec s w) (i : s.Idx) : andi x y i = IntOp.andi (x i) (y i) := rfl
theorem ori_at {s : Shape} {w : Nat} (x y : IVec s w) (i : s.Idx) : ori x y i = IntOp.ori (x i) (y i) := rfl

local notation "D" => dot_S128x1024_S1024x4096_S128x4096_1_0_0_1_n_n

/-- The product's left operand index at output (r, c) and bundle `b` is (r, b); its right operand index is (b, c). -/
theorem lhs_row (j : S128x4096.Idx) (q : (D).contr.Idx) : ((D).lhsIdx j q 0).val = (j 0).val := by
  unfold DotDims.lhsIdx
  rw [dif_neg (show ¬(0 : Fin S128x1024.rank) ∈ (D).lhsBatch by decide), dif_pos (show (0 : Fin S128x1024.rank) ∈ (D).lhsNonContracting by decide)]
  rfl
theorem rhs_col (j : S128x4096.Idx) (q : (D).contr.Idx) : ((D).rhsIdx j q 1).val = (j 1).val := by
  unfold DotDims.rhsIdx
  rw [dif_neg (show ¬(1 : Fin S1024x4096.rank) ∈ (D).rhsBatch by decide), dif_pos (show (1 : Fin S1024x4096.rank) ∈ (D).rhsNonContracting by decide)]
  rfl

/-- THE STORED VALUE at row `r`, cell `c` of the block. -/
theorem stored_apply (xP : Vec Ideal S128x1024 .f32) (xA xB : Vec Ideal S1x1024 .f32) (xW : Vec Ideal S1024x4096 .f32)
    (xC : Vec Ideal S128x4096 .f32) (r : Fin 128) (c : Fin 4096) :
    k0_pay1 xP xA xB xW xC (ix2 r c)
      = xC (ix2 r c) + ∑ b : Fin 1024, damped (xA (ix2 0 b)) (xB (ix2 0 b)) (xP (ix2 r b)) * xW (ix2 b c) := by
  unfold k0_pay1
  simp only [shapeCast_self]
  rw [addf_apply]
  refine congrArg (xC (ix2 r c) + ·) ?_
  simp only [matmul]
  rw [Ideal.matmul_constant_zero_apply, ← Equiv.sum_comp (contrEquiv1 (D) 1024 rfl rfl).symm]
  refine Finset.sum_congr rfl fun b _ => ?_
  have hb := contrEquiv1_symm_val (D) 1024 rfl rfl b
  have el : (D).lhsIdx (ix2 r c) ((contrEquiv1 (D) 1024 rfl rfl).symm b) = ix2 r b := funext fun a => Fin.ext (by
    match a with
    | ⟨0, _⟩ => exact lhs_row _ _
    | ⟨1, _⟩ => exact ((D).lhsIdx_val_of_single rfl _ _).trans hb)
  have er : (D).rhsIdx (ix2 r c) ((contrEquiv1 (D) 1024 rfl rfl).symm b) = ix2 b c := funext fun a => Fin.ext (by
    match a with
    | ⟨0, _⟩ => exact ((D).rhsIdx_val_of_single rfl _ _).trans hb
    | ⟨1, _⟩ => exact rhs_col _ _)
  rw [el, er]
  simp only [truncf_apply, mulf_apply, select_apply, ori_at, andi_at, cmpf_apply, subf_apply, addf_apply, broadcast_apply, row_broadcast]
  rfl

/-- AT A GRID POINT whose rows are the shops `shop r`: when the five loaded blocks are the argument arrays read where the
    windows place them — the probabilities of shop `shop r`, the whole bundle vectors and contents, the inventory row of
    shop `shop r` — the stored value at (r, c) is the next inventory of that shop in cell `c`. -/
theorem stored_is_next (x0 : (⟨1, ![2097152]⟩ : Shape).Idx → EReal) (x1 : (⟨2, ![2048, 4096]⟩ : Shape).Idx → EReal)
    (x2 : (⟨2, ![1024, 4096]⟩ : Shape).Idx → EReal) (x3 x4 : (⟨1, ![1024]⟩ : Shape).Idx → EReal)
    (xP : Vec Ideal S128x1024 .f32) (xA xB : Vec Ideal S1x1024 .f32) (xW : Vec Ideal S1024x4096 .f32)
    (xC : Vec Ideal S128x4096 .f32) (shop : Fin 128 → Fin 2048)
    (hP : ∀ (r : Fin 128) (b : Fin 1024), xP (ix2 r b) = x0 (flat (shop r) b))
    (hA : ∀ b : Fin 1024, xA (ix2 0 b) = x3 (ix1 b)) (hB : ∀ b : Fin 1024, xB (ix2 0 b) = x4 (ix1 b))
    (hW : ∀ (b : Fin 1024) (c : Fin 4096), xW (ix2 b c) = x2 (ix2 b c))
    (hC : ∀ (r : Fin 128) (c : Fin 4096), xC (ix2 r c) = x1 (ix2 (shop r) c))
    (r : Fin 128) (c : Fin 4096) :
    k0_pay1 xP xA xB xW xC (ix2 r c) = nextInven x0 x1 x2 x3 x4 (ix2 (shop r) c) := by
  rw [stored_apply, hC]
  unfold nextInven
  refine congrArg (x1 (ix2 (shop r) c) + ·) (Finset.sum_congr rfl fun b _ => ?_)
  rw [hP, hA, hB, hW]

end Cert.Inventory.Body

end
-- ==== Proof.Blocks.lean ====
/-
  From the blocks to the whole array.

  The grid has 16 points; point `t` works on shops `t * 128 … t * 128 + 127`: its probability block and its
  inventory block are those rows, the bundle vectors and the bundle contents are fetched whole, and it writes back
  the same rows of the result. Before the region the host reshapes the flat probabilities to [2048, 1024] (entry
  (s, b) is position `s * 1024 + b`) and each bundle vector to [1, 1024] (entry (0, b) is entry `b`). So what point
  `t` writes back is block `t` of `nextInven` of the five arguments; the 16 row blocks cover every shop (shop `s` is
  in block `s / 128`); hence the result array after the region is `nextInven` of the arguments.
-/
import proofs.«137715_j45466523795646_2_alg».proof.Proof.Gen.KernelIdeal.Frame
import proofs.«137715_j45466523795646_2_alg».proof.Proof.Payload
import Idealize.ShloMosaic.Lib.Pipeline.Value
import Idealize.ShloMosaic.Lib.StableHlo.Run

set_option maxRecDepth 16384

noncomputable section

namespace Cert.Inventory.Blocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-! ## What the host leaves for the region -/

/-- The probabilities as the region finds them: the flat vector reshaped to [2048, 1024]. -/
theorem probs_entry (c : Dev nD) :
    (V m c main_v0 : S2048x1024.Idx → EReal)
      = shapeCast S2048x1024 (m ((c.tc : Thread nD τ).loc main_arg0)) shapeCasts_S2097152_S2048x1024 := by
  show StableHlo.after hostOps0 (fun b => m (c, b)) (Proc.devRef .tc main_v0) = _
  after_results
  rfl
/-- The availability vector as the region finds it: reshaped to [1, 1024]. -/
theorem avail_entry (c : Dev nD) :
    (V m c main_v1 : S1x1024.Idx → EReal)
      = shapeCast S1x1024 (m ((c.tc : Thread nD τ).loc main_arg3)) shapeCasts_S1024_S1x1024 := by
  show StableHlo.after hostOps0 (fun b => m (c, b)) (Proc.devRef .tc main_v1) = _
  after_results
  rfl
/-- The allocation vector likewise. -/
theorem alloc_entry (c : Dev nD) :
    (V m c main_v2 : S1x1024.Idx → EReal)
      = shapeCast S1x1024 (m ((c.tc : Thread nD τ).loc main_arg4)) shapeCasts_S1024_S1x1024 := by
  show StableHlo.after hostOps0 (fun b => m (c, b)) (Proc.devRef .tc main_v2) = _
  after_results
  rfl

/-- Entry (s, b) of the reshaped probabilities is position `s * 1024 + b` of the flat vector. -/
theorem probs_at (c : Dev nD) (s : Fin 2048) (b : Fin 1024) :
    V m c main_v0 (ix2 s b) = m ((c.tc : Thread nD τ).loc main_arg0) (flat s b) :=
  (congrFun (probs_entry m c) (ix2 s b)).trans
    (shapeCast_apply _ shapeCasts_S2097152_S2048x1024 (ix2 s b) (flat s b)
      (by rw [Shape.rowMajor_val_one, Shape.rowMajor_val_two]; rfl))
/-- Entry (0, b) of a reshaped bundle vector is its entry `b`. -/
theorem avail_at (c : Dev nD) (b : Fin 1024) :
    V m c main_v1 (ix2 0 b) = m ((c.tc : Thread nD τ).loc main_arg3) (ix1 b) :=
  (congrFun (avail_entry m c) (ix2 0 b)).trans
    (shapeCast_apply _ shapeCasts_S1024_S1x1024 (ix2 0 b) (ix1 b)
      (by rw [Shape.rowMajor_val_one, Shape.rowMajor_val_two]; show b.val = 0 * 1024 + b.val; omega))
theorem alloc_at (c : Dev nD) (b : Fin 1024) :
    V m c main_v2 (ix2 0 b) = m ((c.tc : Thread nD τ).loc main_arg4) (ix1 b) :=
  (congrFun (alloc_entry m c) (ix2 0 b)).trans
    (shapeCast_apply _ shapeCasts_S1024_S1x1024 (ix2 0 b) (ix1 b)
      (by rw [Shape.rowMajor_val_one, Shape.rowMajor_val_two]; show b.val = 0 * 1024 + b.val; omega))

/-! ## The windows' blocks over the grid -/

theorem zero_offsets : (![0, 0] : Fin 2 → Nat) = fun _ => 0 := funext fun a => by fin_cases a <;> rfl

/-- The printed index maps, decided over the 16 points: the probability and inventory windows move with the result's
    window down the rows; the bundle vectors and contents stay at block (0, 0); the result's row block is below 16. -/
theorem block_indices : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = win0_5.index t (0 : Fin 2) ∧ win0_4.index t (1 : Fin 2) = 0
    ∧ win0_5.index t (0 : Fin 2) ≤ 15 ∧ win0_5.index t (1 : Fin 2) = 0 :=
  (by decide +kernel : ∀ t : Fin grid0.N, _)

/-- Every one of the 16 row blocks is some point's. -/
theorem every_row_block : ∀ q : Fin 16, ∃ t : Fin cfg0.N, win0_5.index t = ![q.val, 0] :=
  (by decide +kernel : ∀ q : Fin 16, ∃ t : Fin grid0.N, win0_5.index t = ![q.val, 0])

/-! ## What a point writes back -/

/-- Point `t` writes back block `t` of `nextInven` of the arguments. -/
theorem flushed_eq (c : Dev nD) (t : Fin cfg0.N) :
    (dats m 0 c).flushed 5 t = ((cfg0.win 5).blk t).view.read (Elt Ideal)
      (nextInven (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) := by
  show (cfg0.win 5).cut (grid0.coords t) ((dats m 0 c).after 5 t) = _
  rw [after0_5]
  unfold out0_5
  rw [View.canon_unit_zero zero_offsets]
  simp only [View.ld_unit_zero (S := S128x1024) zero_offsets, View.ld_unit_zero (S := S1x1024) zero_offsets,
    View.ld_unit_zero (S := S1024x4096) zero_offsets, View.ld_unit_zero (S := S128x4096) zero_offsets]
  obtain ⟨e00, e01, e10, e11, e20, e21, e30, e31, e40, e41, e5le, e51⟩ := block_indices t
  funext y
  obtain ⟨r, cc, rfl⟩ : ∃ (r : Fin 128) (cc : Fin 4096), y = ix2 r cc := ⟨y 0, y 1, eq_ix2 y⟩
  -- row `r` of point `t`'s blocks is shop `(row block of t) * 128 + r`
  let shop : Fin 128 → Fin 2048 := fun r => ⟨win0_5.index t (0 : Fin 2) * 128 + r.val, by have := r.isLt; omega⟩
  have e5 : ((cfg0.win 5).blk t).view.emb (ix2 r cc) = ix2 (shop r) cc := funext fun a => Fin.ext (by
    match a with
    | ⟨0, _⟩ => show win0_5.index t (0 : Fin 2) * 128 + 1 * r.val = win0_5.index t (0 : Fin 2) * 128 + r.val; omega
    | ⟨1, _⟩ => show win0_5.index t (1 : Fin 2) * 4096 + 1 * cc.val = cc.val; omega)
  show k0_pay1 (iblk m c 0 t) (iblk m c 1 t) (iblk m c 2 t) (iblk m c 3 t) (iblk m c 4 t) (ix2 r cc)
    = nextInven _ _ _ _ _ (((cfg0.win 5).blk t).view.emb (ix2 r cc))
  rw [e5]
  refine Body.stored_is_next _ _ _ _ _ (iblk m c 0 t) (iblk m c 1 t) (iblk m c 2 t) (iblk m c 3 t) (iblk m c 4 t) shop
    ?_ ?_ ?_ ?_ ?_ r cc
  · -- the probability block: rows of the reshaped flat vector
    intro r b
    show V m c main_v0 (((cfg0.win 0).blk t).view.emb (ix2 r b)) = _
    have e : ((cfg0.win 0).blk t).view.emb (ix2 r b) = ix2 (shop r) b := funext fun a => Fin.ext (by
      match a with
      | ⟨0, _⟩ => show win0_0.index t (0 : Fin 2) * 128 + 1 * r.val = win0_5.index t (0 : Fin 2) * 128 + r.val; omega
      | ⟨1, _⟩ => show win0_0.index t (1 : Fin 2) * 1024 + 1 * b.val = b.val; omega)
    rw [e]
    exact probs_at m c (shop r) b
  · -- the availability vector, whole
    intro b
    show V m c main_v1 (((cfg0.win 1).blk t).view.emb (ix2 0 b)) = _
    have e : ((cfg0.win 1).blk t).view.emb (ix2 0 b) = ix2 0 b := funext fun a => Fin.ext (by
      match a with
      | ⟨0, _⟩ => show win0_1.index t (0 : Fin 2) * 1 + 1 * 0 = 0; omega
      | ⟨1, _⟩ => show win0_1.index t (1 : Fin 2) * 1024 + 1 * b.val = b.val; omega)
    rw [e]
    exact avail_at m c b
  · -- the allocation vector, whole
    intro b
    show V m c main_v2 (((cfg0.win 2).blk t).view.emb (ix2 0 b)) = _
    have e : ((cfg0.win 2).blk t).view.emb (ix2 0 b) = ix2 0 b := funext fun a => Fin.ext (by
      match a with
      | ⟨0, _⟩ => show win0_2.index t (0 : Fin 2) * 1 + 1 * 0 = 0; omega
      | ⟨1, _⟩ => show win0_2.index t (1 : Fin 2) * 1024 + 1 * b.val = b.val; omega)
    rw [e]
    exact alloc_at m c b
  · -- the bundle contents, whole
    intro b c'
    show V m c main_arg2 (((cfg0.win 3).blk t).view.emb (ix2 b c')) = _
    have e : ((cfg0.win 3).blk t).view.emb (ix2 b c') = ix2 b c' := funext fun a => Fin.ext (by
      match a with
      | ⟨0, _⟩ => show win0_3.index t (0 : Fin 2) * 1024 + 1 * b.val = b.val; omega
      | ⟨1, _⟩ => show win0_3.index t (1 : Fin 2) * 4096 + 1 * c'.val = c'.val; omega)
    rw [e, V_main_arg2]
  · -- the inventory block: the same rows as the result's
    intro r c'
    show V m c main_arg1 (((cfg0.win 4).blk t).view.emb (ix2 r c')) = _
    have e : ((cfg0.win 4).blk t).view.emb (ix2 r c') = ix2 (shop r) c' := funext fun a => Fin.ext (by
      match a with
      | ⟨0, _⟩ => show win0_4.index t (0 : Fin 2) * 128 + 1 * r.val = win0_5.index t (0 : Fin 2) * 128 + r.val; omega
      | ⟨1, _⟩ => show win0_4.index t (1 : Fin 2) * 4096 + 1 * c'.val = c'.val; omega)
    rw [e, V_main_arg1]

/-! ## The blocks cover the array -/

/-- An index of the result is in point `t`'s block iff each coordinate is in the block's range on its axis. -/
theorem mem_block (t : Fin cfg0.N) (i : S2048x4096.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v3).slice (win0_5.rect t)).set ↔ _
  rw [View.set_slice_whole, Rect.mem_set_unit]
  exact Iff.rfl

/-- Shop `s` is in the block of the point whose row block is `s / 128`. -/
theorem covered (i : S2048x4096.Idx) :
    ∃ t : Fin cfg0.N, (cfg0.win 5).flush t = true ∧ i ∈ ((cfg0.win 5).blk t).view.set := by
  have hi0 : (i 0).val < 2048 := (i 0).isLt
  have hi1 : (i 1).val < 4096 := (i 1).isLt
  obtain ⟨t, ht⟩ := every_row_block ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 4096 ≤ (i 1).val ∧ (i 1).val < win0_5.index t (1 : Fin 2) * 4096 + 4096; omega

/-- THE RESULT ARRAY after the region is `nextInven` of the arguments. -/
theorem final (c : Dev nD) :
    (dats m 0 c).arrAt 5 cfg0.N
      = nextInven (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  (dats m 0 c).arrAt_eq_of_cover 5 _ (fun t _ => flushed_eq m c t) covered

end Cert.Inventory.Blocks

end
-- ==== Proof.KernelRun.lean ====
/-
  The idealized kernel's run, with its result named.

  After the region the host reshapes the [2048, 4096] result array to [1, 8388608]; nothing else follows. So
  @main's result is that reshape of `nextInven` of the arguments, and the five arguments end as launched (the region
  only reads them, the host lines write their own result buffers).
-/
import proofs.«137715_j45466523795646_2_alg».proof.Proof.Blocks

set_option maxRecDepth 16384

noncomputable section

namespace Cert.Inventory.KernelRun

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- What the host line after the region leaves in @main's result: the region's result array, reshaped. -/
theorem result_eq (c : Dev nD) :
    Pipeline.afterTail₀ cfgs (dats m) 0 (V0 m) [hostOps1] c main_v4
      = shapeCast S1x8388608
          (nextInven (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
          shapeCasts_S2048x4096_S1x8388608 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = nextInven (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
    (Pipeline.withArrays_arr spec0 launch0.win.arr_inj c _ _ 5).trans (Blocks.final m c)
  rw [e]
  rfl

/-- THE RUN: every weakly fair execution of the idealized kernel's @main terminates with its result at the reshape of
    `nextInven` of the arguments, and the arguments as launched. -/
theorem run : θ_run defs (onTc (τ := τ) (main (F := Ideal))) ⟨m, fun _ => 0, ρ⟩ fun r => ∀ c : Dev nD,
      r.2.mem ((c.tc : Thread nD τ).loc main_v4)
        = shapeCast S1x8388608
            (nextInven (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4)))
            shapeCasts_S2048x4096_S1x8388608
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 4).trans (((dats m 0 c).arrAt_in 4 rfl _).trans ((A_eq m c 4).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Inventory.KernelRun

end
-- ==== Proof.lean ====
/-
  The next-inventory kernel against its reference, over the extended reals.

  Both programs take a flat vector of 2048 × 1024 probabilities (shop-major), the current inventory [2048, 4096],
  the bundle contents [1024, 4096] and two bundle vectors [1024] (availability, allocation), and return, flattened
  to [1, 8388608],

      next[s, c] = cur[s, c] + Σ_b damped(avail[b], alloc[b], p[s, b]) · bun[b, c],

  where `damped` multiplies `p` by the f32 literal 0.01 when `(avail - p < 0 ∧ p > 0) ∨ (alloc + p < 0 ∧ p < 0)` and by 1
  otherwise (Proof/Spec.lean, `nextInven`). The reference computes it with whole-array operations and one
  contraction (Proof/RefSide.lean, over the generated reading of its run). The kernel cuts the shops into 16 blocks
  of 128 rows; at each block it damps the probabilities entry by entry, changes both operands' float format (the
  identity on the extended reals), multiplies into a zero accumulator and adds the inventory block
  (Proof/Payload.lean); the 16 row blocks tile the result (Proof/Blocks.lean), and the host reshapes it
  (Proof/KernelRun.lean). The two sides apply the same scalar operations, to the same literals, in the same
  order. Of the extended reals the proof uses only that `0 + x = x` and that a finite sum may be re-indexed along a
  bijection (addition there is commutative and associative, at the infinities too): no distributivity and no
  cancellation, so the finiteness of the inputs is never used.

  The idealization rewrote no operation, so `preserves` has nothing to state. The three frames are the generated ones;
  the reference has no kernel, and its frame is its generated run with the result dropped.
-/
import proofs.«137715_j45466523795646_2_alg».proof.Defs
import proofs.«137715_j45466523795646_2_alg».proof.Proof.Gen.Kernel
import proofs.«137715_j45466523795646_2_alg».proof.Proof.Gen.Kernel.Skeleton
import proofs.«137715_j45466523795646_2_alg».proof.Proof.Gen.Kernel.Launch
import proofs.«137715_j45466523795646_2_alg».proof.Proof.Gen.Kernel.Points
import proofs.«137715_j45466523795646_2_alg».proof.Proof.Gen.Kernel.Frame
import proofs.«137715_j45466523795646_2_alg».proof.Proof.Gen.KernelIdeal
import proofs.«137715_j45466523795646_2_alg».proof.Proof.Gen.KernelIdeal.Skeleton
import proofs.«137715_j45466523795646_2_alg».proof.Proof.Gen.KernelIdeal.Launch
import proofs.«137715_j45466523795646_2_alg».proof.Proof.Gen.KernelIdeal.Points
import proofs.«137715_j45466523795646_2_alg».proof.Proof.Gen.KernelIdeal.Frame
import proofs.«137715_j45466523795646_2_alg».proof.Proof.Gen.ReferenceIdeal
import proofs.«137715_j45466523795646_2_alg».proof.Proof.Gen.Pre_finite_inputs
import proofs.«137715_j45466523795646_2_alg».proof.Proof.Gen.ReferenceIdeal.Run
import proofs.«137715_j45466523795646_2_alg».proof.Proof.Gen.ReferenceIdeal.Read
import proofs.«137715_j45466523795646_2_alg».proof.Proof.RefSide
import proofs.«137715_j45466523795646_2_alg».proof.Proof.KernelRun
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the five arguments, both programs end with the flattened `nextInven` of them. -/
theorem algebraic : Cert.algebraic_KernelIdeal_ReferenceIdeal := by
  intro m ρ m' ρ' _ hagree
  refine ⟨_, Cert.Inventory.KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq _ _ _ _ _).trans ?_
  unfold Cert.ReferenceIdeal.Read.val_main_v22
  rw [Cert.Inventory.Ref.stage_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
